-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1x240x320 : Shape := ⟨4, ![2, 1, 240, 320]⟩
abbrev S2x257 : Shape := ⟨2, ![2, 257]⟩
abbrev S_ : Shape := ⟨0, ![]⟩

class Facts : Prop where
  bcast_S_S2x1x240x320 : S_.BroadcastsInDim S2x1x240x320 (![] : Fin 0 → Fin S2x1x240x320.rank)
  reducesTo_S2x1x240x320_S_d0_1_2_3 : S2x1x240x320.ReducesTo [0, 1, 2, 3] S_
  h_S_ : 0 < S_.numel
  bcast_S_S2x257 : S_.BroadcastsInDim S2x257 (![] : Fin 0 → Fin S2x257.rank)
  reducesTo_S2x257_S_d0_1 : S2x257.ReducesTo [0, 1] S_

variable [Facts]

def fn {F : FTy → Type} [FloatOps F] (main_arg0 : FVec F S2x1x240x320 .f32) (main_arg1 : FVec F S2x257 .f32) : IVec S_ 1 :=
  let main_v0 : FVec F S2x1x240x320 .f32 := Host.absf main_arg0
  let main_cst : FVec F S_ .f32 := constant S_ .f32 0x7F800000#32
  let main_v1 : FVec F S2x1x240x320 .f32 := broadcastInDim S2x1x240x320 ![] bcast_S_S2x1x240x320 main_cst
  let main_v2 : IVec S2x1x240x320 1 := cmpf .olt main_v0 main_v1
  let main_c : IVec S_ 1 := constantI S_ 1 1#1
  let main_v3 : IVec S_ 1 := (fun x v => Host.reduce IntOp.andi x v reducesTo_S2x1x240x320_S_d0_1_2_3 h_S_) main_v2 main_c
  let main_v4 : FVec F S2x257 .f32 := Host.absf main_arg1
  let main_cst_0 : FVec F S_ .f32 := constant S_ .f32 0x7F800000#32
  let main_v5 : FVec F S2x257 .f32 := broadcastInDim S2x257 ![] bcast_S_S2x257 main_cst_0
  let main_v6 : IVec S2x257 1 := cmpf .olt main_v4 main_v5
  let main_c_1 : IVec S_ 1 := constantI S_ 1 1#1
  let main_v7 : IVec S_ 1 := (fun x v => Host.reduce IntOp.andi x v reducesTo_S2x257_S_d0_1 h_S_) main_v6 main_c_1
  let main_v8 : IVec S_ 1 := andi main_v3 main_v7
  main_v8
-- ==== Kernel.lean ====
abbrev S2x1x240x320 : Shape := ⟨4, ![2, 1, 240, 320]⟩
abbrev S2x257 : Shape := ⟨2, ![2, 257]⟩
abbrev S2x256 : Shape := ⟨2, ![2, 256]⟩
abbrev S_ : Shape := ⟨0, ![]⟩
abbrev S2x76800 : Shape := ⟨2, ![2, 76800]⟩
abbrev S2x1x256 : Shape := ⟨3, ![2, 1, 256]⟩
abbrev S2x1x76800 : Shape := ⟨3, ![2, 1, 76800]⟩
abbrev S2x1x1 : Shape := ⟨3, ![2, 1, 1]⟩
abbrev S1x1x256 : Shape := ⟨3, ![1, 1, 256]⟩
abbrev S1x1x7680 : Shape := ⟨3, ![1, 1, 7680]⟩
abbrev S1x1x1 : Shape := ⟨3, ![1, 1, 1]⟩
abbrev S256x1 : Shape := ⟨2, ![256, 1]⟩
abbrev S1x1 : Shape := ⟨2, ![1, 1]⟩
abbrev S1x256 : Shape := ⟨2, ![1, 256]⟩
abbrev S1x7680 : Shape := ⟨2, ![1, 7680]⟩
abbrev S256x7680 : Shape := ⟨2, ![256, 7680]⟩
abbrev S256 : Shape := ⟨1, ![256]⟩
abbrev S7680 : Shape := ⟨1, ![7680]⟩
abbrev S1 : Shape := ⟨1, ![1]⟩
abbrev S2 : Shape := ⟨1, ![2]⟩

abbrev nBuf : Space → Nat
  | .hbm => 17
  | .vmem => 8
  | .smem => 0
  | _ => 0

abbrev bufTy : (tb : Table) → Fin (tcTables nBuf tb) → BufTy
  | .hbm, ⟨0, _⟩ => ⟨S2x1x240x320, .f32⟩
  | .hbm, ⟨1, _⟩ => ⟨S2x257, .f32⟩
  | .hbm, ⟨2, _⟩ => ⟨S2x256, .f32⟩
  | .hbm, ⟨3, _⟩ => ⟨S2x256, .f32⟩
  | .hbm, ⟨4, _⟩ => ⟨S2x256, .f32⟩
  | .hbm, ⟨5, _⟩ => ⟨S_, .f32⟩
  | .hbm, ⟨6, _⟩ => ⟨S2x256, .f32⟩
  | .hbm, ⟨7, _⟩ => ⟨S2x256, .f32⟩
  | .hbm, ⟨8, _⟩ => ⟨S2x76800, .f32⟩
  | .hbm, ⟨9, _⟩ => ⟨S2x1x256, .f32⟩
  | .hbm, ⟨10, _⟩ => ⟨S2x1x76800, .f32⟩
  | .hbm, ⟨11, _⟩ => ⟨S2x1x1, .f32⟩
  | .hbm, ⟨12, _⟩ => ⟨S2, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S1x1x256, .f32⟩
  | .local _ .vmem, ⟨1, _⟩ => ⟨S1x1x256, .f32⟩
  | .local _ .vmem, ⟨2, _⟩ => ⟨S1x1x7680, .f32⟩
  | .local _ .vmem, ⟨3, _⟩ => ⟨S1x1x7680, .f32⟩
  | .local _ .vmem, ⟨4, _⟩ => ⟨S1x1x1, .f32⟩
  | .local _ .vmem, ⟨5, _⟩ => ⟨S1x1x1, .f32⟩
  | .local _ .vmem, ⟨6, _⟩ => ⟨S256x1, .f32⟩
  | .local _ .vmem, ⟨7, _⟩ => ⟨S1x1, .f32⟩
  | _, _ => ⟨S2x1x240x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 10], ![false, false]⟩

def k0_cond2 (i : grid0.Coords) : BitVec 1 :=
  let arg1 : BitVec 32 := BitVec.ofNat 32 (i 1).val
  let c9_i32 : BitVec 32 := 9#32
  let v28 : BitVec 1 := Scalar.cmpi .eq arg1 c9_i32
  let v29 : BitVec 32 := Scalar.extui v28
  let c0_i32_16 : BitVec 32 := 0#32
  let v30 : BitVec 1 := Scalar.cmpi .ne v29 c0_i32_16
  v30

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x7680 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  slices_S2x257_S2x256_0_0 : S2x257.Slices ![0, 0] S2x256
  slices_S2x257_S2x256_0_1 : S2x257.Slices ![0, 1] S2x256
  bcast_S_S2x256 : S_.BroadcastsInDim S2x256 (![] : Fin 0 → Fin S2x256.rank)
  shapeCasts_S2x1x240x320_S2x76800 : S2x1x240x320.ShapeCasts S2x76800
  shapeCasts_S2x256_S2x1x256 : S2x256.ShapeCasts S2x1x256
  shapeCasts_S2x76800_S2x1x76800 : S2x76800.ShapeCasts S2x1x76800
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  inb_S1x1x7680_S1x1x7680_0_0_0 : ∀ a, (![0, 0, 0] : Fin 3 → Nat) a + S1x1x7680.size a ≤ S1x1x7680.size a
  h_S1x1x7680 : 0 < S1x1x7680.numel
  shapeCasts_S1x1x7680_S1x7680 : S1x1x7680.ShapeCasts S1x7680
  transposes_S1x256_p1_0_S256x1 : S1x256.Transposes [1, 0] S256x1
  broadcasts_S256x1_S256x7680 : S256x1.Broadcasts S256x7680
  broadcasts_S1x7680_S256x7680 : S1x7680.Broadcasts S256x7680
  reduces_S256x7680_S256 : S256x7680.Reduces [1] S256
  shapeCasts_S256_S256x1 : S256.ShapeCasts S256x1
  reduces_S256x7680_S7680 : S256x7680.Reduces [0] S7680
  shapeCasts_S7680_S1x7680 : S7680.ShapeCasts S1x7680
  reduces_S1x7680_S1 : S1x7680.Reduces [1] S1
  shapeCasts_S1_S1x1 : S1.ShapeCasts S1x1
  reduces_S256x1_S1 : S256x1.Reduces [0] S1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256.size a ≤ S2x1x256.size a
  hwx0_0 : ∀ i : grid0.Coords, EltTy.bits .f32 = 32 ∨ (Rect.block (s := S2x1x256) S1x1x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x7680.size a ≤ S2x1x76800.size a
  hwx0_1 : ∀ i : grid0.Coords, EltTy.bits .f32 = 32 ∨ (Rect.block (s := S2x1x76800) S1x1x7680.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_v6) S1x1x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x1x7680.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2x1x240x320 : Shape := ⟨4, ![2, 1, 240, 320]⟩
abbrev S2x257 : Shape := ⟨2, ![2, 257]⟩
abbrev S2x256 : Shape := ⟨2, ![2, 256]⟩
abbrev S_ : Shape := ⟨0, ![]⟩
abbrev S2x76800 : Shape := ⟨2, ![2, 76800]⟩
abbrev S2x256x1 : Shape := ⟨3, ![2, 256, 1]⟩
abbrev S2x1x76800 : Shape := ⟨3, ![2, 1, 76800]⟩
abbrev S2x256x76800 : Shape := ⟨3, ![2, 256, 76800]⟩
abbrev S2 : Shape := ⟨1, ![2]⟩
abbrev S2x76800x1 : Shape := ⟨3, ![2, 76800, 1]⟩
abbrev S2x1x256 : Shape := ⟨3, ![2, 1, 256]⟩
abbrev S2x76800x256 : Shape := ⟨3, ![2, 76800, 256]⟩

abbrev nBuf : Space → Nat
  | .hbm => 34
  | .vmem => 0
  | .smem => 0
  | _ => 0

abbrev bufTy : (tb : Table) → Fin (tcTables nBuf tb) → BufTy
  | .hbm, ⟨0, _⟩ => ⟨S2x1x240x320, .f32⟩
  | .hbm, ⟨1, _⟩ => ⟨S2x257, .f32⟩
  | .hbm, ⟨2, _⟩ => ⟨S2x256, .f32⟩
  | .hbm, ⟨3, _⟩ => ⟨S2x256, .f32⟩
  | .hbm, ⟨4, _⟩ => ⟨S2x256, .f32⟩
  | .hbm, ⟨5, _⟩ => ⟨S_, .f32⟩
  | .hbm, ⟨6, _⟩ => ⟨S2x256, .f32⟩
  | .hbm, ⟨7, _⟩ => ⟨S2x256, .f32⟩
  | .hbm, ⟨8, _⟩ => ⟨S2x76800, .f32⟩
  | .hbm, ⟨9, _⟩ => ⟨S2x256x1, .f32⟩
  | .hbm, ⟨10, _⟩ => ⟨S2x1x76800, .f32⟩
  | .hbm, ⟨11, _⟩ => ⟨S2x256x76800, .f32⟩
  | .hbm, ⟨12, _⟩ => ⟨S2x256x76800, .f32⟩
  | .hbm, ⟨13, _⟩ => ⟨S2x256x76800, .f32⟩
  | .hbm, ⟨14, _⟩ => ⟨S2x256x76800, .f32⟩
  | .hbm, ⟨15, _⟩ => ⟨S_, .f32⟩
  | .hbm, ⟨16, _⟩ => ⟨S2x256, .f32⟩
  | .hbm, ⟨17, _⟩ => ⟨S_, .f32⟩
  | .hbm, ⟨18, _⟩ => ⟨S2, .f32⟩
  | .hbm, ⟨19, _⟩ => ⟨S2x76800x1, .f32⟩
  | .hbm, ⟨20, _⟩ => ⟨S2x1x256, .f32⟩
  | .hbm, ⟨21, _⟩ => ⟨S2x76800x256, .f32⟩
  | .hbm, ⟨22, _⟩ => ⟨S2x76800x256, .f32⟩
  | .hbm, ⟨23, _⟩ => ⟨S2x76800x256, .f32⟩
  | .hbm, ⟨24, _⟩ => ⟨S2x76800x256, .f32⟩
  | .hbm, ⟨25, _⟩ => ⟨S_, .f32⟩
  | .hbm, ⟨26, _⟩ => ⟨S2x76800, .f32⟩
  | .hbm, ⟨27, _⟩ => ⟨S_, .f32⟩
  | .hbm, ⟨28, _⟩ => ⟨S2, .f32⟩
  | .hbm, ⟨29, _⟩ => ⟨S2, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S2x1x240x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  slices_S2x257_S2x256_0_0 : S2x257.Slices ![0, 0] S2x256
  slices_S2x257_S2x256_0_1 : S2x257.Slices ![0, 1] S2x256
  bcast_S_S2x256 : S_.BroadcastsInDim S2x256 (![] : Fin 0 → Fin S2x256.rank)
  shapeCasts_S2x1x240x320_S2x76800 : S2x1x240x320.ShapeCasts S2x76800
  bcast_S2x256_S2x256x1_0_1 : S2x256.BroadcastsInDim S2x256x1 (![0, 1] : Fin 2 → Fin S2x256x1.rank)
  bcast_S2x76800_S2x1x76800_0_2 : S2x76800.BroadcastsInDim S2x1x76800 (![0, 2] : Fin 2 → Fin S2x1x76800.rank)
  bcast_S2x256x1_S2x256x76800_0_1_2 : S2x256x1.BroadcastsInDim S2x256x76800 (![0, 1, 2] : Fin 3 → Fin S2x256x76800.rank)
  bcast_S2x1x76800_S2x256x76800_0_1_2 : S2x1x76800.BroadcastsInDim S2x256x76800 (![0, 1, 2] : Fin 3 → Fin S2x256x76800.rank)
  reducesTo_S2x256x76800_S2x256_d2 : S2x256x76800.ReducesTo [2] S2x256
  h_S_ : 0 < S_.numel
  reducesTo_S2x256_S2_d1 : S2x256.ReducesTo [1] S2
  bcast_S2x76800_S2x76800x1_0_1 : S2x76800.BroadcastsInDim S2x76800x1 (![0, 1] : Fin 2 → Fin S2x76800x1.rank)
  bcast_S2x256_S2x1x256_0_2 : S2x256.BroadcastsInDim S2x1x256 (![0, 2] : Fin 2 → Fin S2x1x256.rank)
  bcast_S2x76800x1_S2x76800x256_0_1_2 : S2x76800x1.BroadcastsInDim S2x76800x256 (![0, 1, 2] : Fin 3 → Fin S2x76800x256.rank)
  bcast_S2x1x256_S2x76800x256_0_1_2 : S2x1x256.BroadcastsInDim S2x76800x256 (![0, 1, 2] : Fin 3 → Fin S2x76800x256.rank)
  reducesTo_S2x76800x256_S2x76800_d2 : S2x76800x256.ReducesTo [2] S2x76800
  reducesTo_S2x76800_S2_d1 : S2x76800.ReducesTo [1] S2
  reducesTo_S2_S_d0 : S2.ReducesTo [0] S_

variable [Facts₀]

class Facts : Prop extends Facts₀ where

variable [Facts]
-- ==== Proof.Spec.lean ====
/-
  The bidirectional Chamfer loss of one batch element as a function on the extended reals, and the
  order-free laws the two programs' different arrangements of it rest on.

  For bin centres `bc r` (256 of them) and depths `td j` (76800 of them) the loss is
      ∑ r, ⨅ j, (bc r - td j)² + ∑ j, ⨅ r, (bc r - td j)².
  One program forms it from whole arrays; the other streams the depths in ten tiles of 7680, keeping a running
  minimum per centre and a running sum of per-depth minima. That the streamed value is the whole one needs only:
  a fold of `min` from `⊤` is an infimum, an infimum (a sum) over the ten tiles is the infimum (sum) over all
  depths, and the squared difference is symmetric.
-/
import Idealize.ShloMosaic.PureOps.Ideal
import Idealize.ShloMosaic.Lib.ValueIdx

noncomputable section

open scoped BigOperators

namespace Chamfer

open Idealize.ShloMosaic Idealize.ShloMosaic.ValueIdx

/-- The squared difference of two extended reals. -/
def sq (a b : EReal) : EReal := (a - b) * (a - b)

/-- The squared difference is symmetric, infinities included. -/
theorem sq_symm (a b : EReal) : sq a b = sq b a := by
  unfold sq
  induction a using EReal.rec <;> induction b using EReal.rec
  all_goals first
    | rfl
    | (rw [← EReal.coe_sub, ← EReal.coe_sub, ← EReal.coe_mul, ← EReal.coe_mul]; congr 1; ring)
    | simp

/-- A fold of `min` over a whole finite type is the meet of the start value and the infimum. -/
theorem fold_min {ι : Type} [Fintype ι] (b : EReal) (f : ι → EReal) :
    (Finset.univ : Finset ι).fold min b f = min b (⨅ k, f k) := by
  refine eq_of_forall_le_iff fun c => ?_
  rw [Finset.le_fold_min, le_min_iff, le_iInf_iff]
  simp

/-- From `⊤` it is the infimum. -/
theorem fold_min_top {ι : Type} [Fintype ι] (f : ι → EReal) :
    (Finset.univ : Finset ι).fold min ⊤ f = ⨅ k, f k := by
  rw [fold_min, top_inf_eq]

/-- The loss of one batch element: every centre's squared distance to its nearest depth, summed, plus every
    depth's squared distance to its nearest centre, summed. -/
def loss (bc : Fin 256 → EReal) (td : Fin 76800 → EReal) : EReal :=
  (∑ r, ⨅ j, sq (bc r) (td j)) + ∑ j, ⨅ r, sq (bc r) (td j)

/-- The loss of batch element `b` of arrays of centres [2, 256] and depths [2, 76800]. -/
def lossAt (bc : (⟨2, ![2, 256]⟩ : Shape).Idx → EReal) (td : (⟨2, ![2, 76800]⟩ : Shape).Idx → EReal) (b : Fin 2) : EReal :=
  loss (fun r => bc (ix2 b r)) (fun j => td (ix2 b j))

/-- Position `j` of tile `k` among all depths: `7680 k + j`. -/
def tileIdx (k : Fin 10) (j : Fin 7680) : Fin 76800 :=
  ⟨7680 * k.val + j.val, by have := k.isLt; have := j.isLt; omega⟩

/-- Centre `r`'s squared distance to its nearest depth within tile `k`. -/
def tileMin (bc : Fin 256 → EReal) (td : Fin 76800 → EReal) (r : Fin 256) (k : Fin 10) : EReal :=
  ⨅ j : Fin 7680, sq (bc r) (td (tileIdx k j))

/-- The sum over tile `k`'s depths of each one's squared distance to its nearest centre. -/
def tileSum (bc : Fin 256 → EReal) (td : Fin 76800 → EReal) (k : Fin 10) : EReal :=
  ∑ j : Fin 7680, ⨅ r : Fin 256, sq (bc r) (td (tileIdx k j))

/-- An infimum over all depths is the infimum over the tiles of the infima within them. -/
theorem iInf_tiles (g : Fin 76800 → EReal) : (⨅ k : Fin 10, ⨅ j : Fin 7680, g (tileIdx k j)) = ⨅ j, g j := by
  refine eq_of_forall_le_iff fun c => ?_
  simp only [le_iInf_iff]
  constructor
  · intro h j
    have hj := j.isLt
    have e : tileIdx ⟨j.val / 7680, by omega⟩ ⟨j.val % 7680, by omega⟩ = j :=
      Fin.ext (by simp only [tileIdx]; omega)
    have := h ⟨j.val / 7680, by omega⟩ ⟨j.val % 7680, by omega⟩
    rwa [e] at this
  · intro h k j
    exact h _

/-- A depth's position is a tile and a position within it, uniquely. -/
def tileEquiv : Fin 10 × Fin 7680 ≃ Fin 76800 where
  toFun p := tileIdx p.1 p.2
  invFun j := (⟨j.val / 7680, by have := j.isLt; omega⟩, ⟨j.val % 7680, by omega⟩)
  left_inv p := by
    rcases p with ⟨k, j⟩
    have := k.isLt
    have := j.isLt
    refine Prod.ext (Fin.ext ?_) (Fin.ext ?_)
    · simp only [tileIdx]; omega
    · simp only [tileIdx]; omega
  right_inv j := Fin.ext (by simp only [tileIdx]; omega)

/-- A sum over all depths is the sum over the tiles of the sums within them. -/
theorem sum_tiles (g : Fin 76800 → EReal) : (∑ k : Fin 10, ∑ j : Fin 7680, g (tileIdx k j)) = ∑ j, g j := by
  rw [← Fintype.sum_prod_type' (f := fun k j => g (tileIdx k j))]
  exact Fintype.sum_equiv tileEquiv _ _ (fun _ => rfl)

/-- The loss, tile by tile. -/
theorem loss_eq_tiles (bc : Fin 256 → EReal) (td : Fin 76800 → EReal) :
    (∑ r, ⨅ k, tileMin bc td r k) + ∑ k, tileSum bc td k = loss bc td := by
  unfold loss tileMin tileSum
  rw [sum_tiles (fun j => ⨅ r, sq (bc r) (td j))]
  congr 1
  exact Finset.sum_congr rfl fun r _ => iInf_tiles (fun j => sq (bc r) (td j))

/-- A running minimum started at the first term and met with each next term ends at the infimum of them all. -/
theorem runMin_last {n : ℕ} (T : Fin (n + 1) → EReal) (M : (k : ℕ) → k < n + 1 → EReal)
    (h0 : M 0 (Nat.succ_pos n) = T ⟨0, Nat.succ_pos n⟩)
    (hs : ∀ k (h : k + 1 < n + 1), M (k + 1) h = min (M k (Nat.lt_of_succ_lt h)) (T ⟨k + 1, h⟩)) :
    M n (Nat.lt_succ_self n) = ⨅ k, T k := by
  induction n with
  | zero =>
    rw [h0]
    refine eq_of_forall_le_iff fun c => ?_
    rw [le_iInf_iff]
    exact ⟨fun h k => by rwa [show k = ⟨0, Nat.succ_pos 0⟩ from Fin.ext (by have := k.isLt; omega)], fun h => h _⟩
  | succ n ih =>
    rw [hs n (Nat.lt_succ_self _),
      ih (fun k => T k.castSucc) (fun k h => M k (Nat.lt_succ_of_lt h)) h0 (fun k h => hs k (Nat.lt_succ_of_lt h))]
    refine eq_of_forall_le_iff fun c => ?_
    rw [le_min_iff, le_iInf_iff, le_iInf_iff]
    exact (Fin.forall_fin_succ' (P := fun i => c ≤ T i)).symm

/-- A running sum started at the first term and increased by each next term ends at the sum of them all. -/
theorem runSum_last {n : ℕ} (T : Fin (n + 1) → EReal) (M : (k : ℕ) → k < n + 1 → EReal)
    (h0 : M 0 (Nat.succ_pos n) = T ⟨0, Nat.succ_pos n⟩)
    (hs : ∀ k (h : k + 1 < n + 1), M (k + 1) h = M k (Nat.lt_of_succ_lt h) + T ⟨k + 1, h⟩) :
    M n (Nat.lt_succ_self n) = ∑ k, T k := by
  induction n with
  | zero =>
    rw [h0, Fin.sum_univ_one]
    rfl
  | succ n ih =>
    rw [hs n (Nat.lt_succ_self _), Fin.sum_univ_castSucc,
      ih (fun k => T k.castSucc) (fun k h => M k (Nat.lt_succ_of_lt h)) h0 (fun k h => hs k (Nat.lt_succ_of_lt h))]
    rfl

end Chamfer

end
-- ==== Proof.RefStages.lean ====
/-
  The reference's per-batch value is the loss.

  Read one element at a time, the reference forms, for batch element `b`, the array of squared differences
  `(bc (b, r) - td (b, j))²` over centres `r` and depths `j`, takes its minimum over the depths (a fold of `min`
  from `+∞`, which is the infimum) and sums the minima over the centres; then the array of squared differences
  `(td (b, j) - bc (b, r))²`, whose minimum over the centres it sums over the depths; and adds the two sums. The
  squared difference is symmetric, so the sum of the two is the loss of batch element `b`.
-/
import proofs.«166850_j21028159881362_1_alg».proof.Defs
import proofs.«166850_j21028159881362_1_alg».proof.Proof.Gen.ReferenceIdeal.Run
import proofs.«166850_j21028159881362_1_alg».proof.Proof.Gen.ReferenceIdeal.Read
import proofs.«166850_j21028159881362_1_alg».proof.Proof.Spec
import Idealize.ShloMosaic.Lib.ValueIdx
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.ValueIdx

/-- The single-precision word of `+∞` is the top of the extended reals. -/
theorem ofBits_inf_f32 : Ideal.ofBits .f32 0x7F800000#32 = (⊤ : EReal) := by
  simp [Ideal.ofBits, Ideal.ieee]

/-- A fold of the ideal minimum from the word of `+∞` over a whole finite type is the infimum. -/
theorem fold_minimumf_inf {ι : Type} [Fintype ι] (f : ι → EReal) :
    (Finset.univ : Finset ι).fold (FloatOps.minimumf (F := Ideal) (φ := .f32)) (Ideal.ofBits .f32 0x7F800000#32) f
      = ⨅ k, f k := by
  rw [ofBits_inf_f32]
  exact Chamfer.fold_min_top f

variable (x0 : (⟨S2x1x240x320, .f32⟩ : BufTy).Contents (Elt Ideal)) (x1 : (⟨S2x257, .f32⟩ : BufTy).Contents (Elt Ideal))

/-- The centre-major array of squared differences at batch element `b`, centre `r`, depth `j`. -/
theorem v11_at (b : Fin 2) (r : Fin 256) (j : Fin 76800) :
    val_main_v11 (F := Ideal) x0 x1 (ix3 b r j)
      = Chamfer.sq (val_main_v4 (F := Ideal) x1 (ix2 b r)) (val_main_v5 (F := Ideal) x0 (ix2 b j)) := by
  rw [val_main_v11_apply, val_main_v10_apply, val_main_v8_apply, val_main_v9_apply, val_main_v6_apply,
    val_main_v7_apply]
  have e1 : idx_main_v6 (idx_main_v8 (ix3 b r j)) = ix2 b r :=
    funext fun a => Fin.ext (by match a with | ⟨0, _⟩ => rfl | ⟨1, _⟩ => rfl)
  have e2 : idx_main_v7 (idx_main_v9 (ix3 b r j)) = ix2 b j :=
    funext fun a => Fin.ext (by match a with | ⟨0, _⟩ => rfl | ⟨1, _⟩ => rfl)
  rw [e1, e2]
  rfl

/-- The depth-major array of squared differences at batch element `b`, depth `j`, centre `r`: the same number,
    the squared difference being symmetric. -/
theorem v19_at (b : Fin 2) (j : Fin 76800) (r : Fin 256) :
    val_main_v19 (F := Ideal) x0 x1 (ix3 b j r)
      = Chamfer.sq (val_main_v4 (F := Ideal) x1 (ix2 b r)) (val_main_v5 (F := Ideal) x0 (ix2 b j)) := by
  rw [val_main_v19_apply, val_main_v18_apply, val_main_v16_apply, val_main_v17_apply, val_main_v14_apply,
    val_main_v15_apply]
  have e1 : idx_main_v14 (idx_main_v16 (ix3 b j r)) = ix2 b j :=
    funext fun a => Fin.ext (by match a with | ⟨0, _⟩ => rfl | ⟨1, _⟩ => rfl)
  have e2 : idx_main_v15 (idx_main_v17 (ix3 b j r)) = ix2 b r :=
    funext fun a => Fin.ext (by match a with | ⟨0, _⟩ => rfl | ⟨1, _⟩ => rfl)
  rw [e1, e2, Chamfer.sq_symm]
  rfl

/-- Centre `r`'s minimum over the depths is the infimum of its squared differences. -/
theorem v12_at (b : Fin 2) (r : Fin 256) :
    val_main_v12 (F := Ideal) x0 x1 (ix2 b r)
      = ⨅ j : Fin 76800, Chamfer.sq (val_main_v4 (F := Ideal) x1 (ix2 b r)) (val_main_v5 (F := Ideal) x0 (ix2 b j)) := by
  have h : S2x256x76800.Reduces [2] S2x256 := by decide
  unfold val_main_v12
  rw [Host.reduce_eq_fold_single (FloatOps.minimumf (F := Ideal) (φ := .f32)) (val_main_v11 (F := Ideal) x0 x1)
    (val_main_cst_0 (F := Ideal)) reducesTo_S2x256x76800_S2x256_d2 h h_S_ (ix2 b r)]
  rw [val_main_cst_0_apply]
  refine (fold_minimumf_inf _).trans (iInf_congr fun (j : Fin 76800) => ?_)
  have e : h.lift (ix2 b r) j = ix3 b r j :=
    funext fun a => Fin.ext (by match a with | ⟨0, _⟩ => rfl | ⟨1, _⟩ => rfl | ⟨2, _⟩ => rfl)
  show val_main_v11 (F := Ideal) x0 x1 (h.lift (ix2 b r) j) = _
  rw [e, v11_at]

/-- Depth `j`'s minimum over the centres is the infimum of its squared differences. -/
theorem v20_at (b : Fin 2) (j : Fin 76800) :
    val_main_v20 (F := Ideal) x0 x1 (ix2 b j)
      = ⨅ r : Fin 256, Chamfer.sq (val_main_v4 (F := Ideal) x1 (ix2 b r)) (val_main_v5 (F := Ideal) x0 (ix2 b j)) := by
  have h : S2x76800x256.Reduces [2] S2x76800 := by decide
  unfold val_main_v20
  rw [Host.reduce_eq_fold_single (FloatOps.minimumf (F := Ideal) (φ := .f32)) (val_main_v19 (F := Ideal) x0 x1)
    (val_main_cst_2 (F := Ideal)) reducesTo_S2x76800x256_S2x76800_d2 h h_S_ (ix2 b j)]
  rw [val_main_cst_2_apply]
  refine (fold_minimumf_inf _).trans (iInf_congr fun (r : Fin 256) => ?_)
  have e : h.lift (ix2 b j) r = ix3 b j r :=
    funext fun a => Fin.ext (by match a with | ⟨0, _⟩ => rfl | ⟨1, _⟩ => rfl | ⟨2, _⟩ => rfl)
  show val_main_v19 (F := Ideal) x0 x1 (h.lift (ix2 b j) r) = _
  rw [e, v19_at]

/-- The sum over the centres of their minima. -/
theorem v13_at (i : S2.Idx) :
    val_main_v13 (F := Ideal) x0 x1 i
      = ∑ r : Fin 256, ⨅ j : Fin 76800,
          Chamfer.sq (val_main_v4 (F := Ideal) x1 (ix2 (n0 := 2) (i 0) r)) (val_main_v5 (F := Ideal) x0 (ix2 (n0 := 2) (i 0) j)) := by
  rw [val_main_v13_apply, val_main_cst_1_apply]
  show Ideal.ofBits .f32 0x00000000#32 + _ = _
  rw [Ideal.ofBits_zero_f32, zero_add]
  refine Finset.sum_congr rfl fun r _ => ?_
  have e : idx_main_v13 i r = ix2 (n0 := 2) (i 0) r :=
    funext fun a => Fin.ext (by match a with | ⟨0, _⟩ => rfl | ⟨1, _⟩ => rfl)
  rw [e]
  exact v12_at x0 x1 (i 0) r

/-- The sum over the depths of their minima. -/
theorem v21_at (i : S2.Idx) :
    val_main_v21 (F := Ideal) x0 x1 i
      = ∑ j : Fin 76800, ⨅ r : Fin 256,
          Chamfer.sq (val_main_v4 (F := Ideal) x1 (ix2 (n0 := 2) (i 0) r)) (val_main_v5 (F := Ideal) x0 (ix2 (n0 := 2) (i 0) j)) := by
  rw [val_main_v21_apply, val_main_cst_3_apply]
  show Ideal.ofBits .f32 0x00000000#32 + _ = _
  rw [Ideal.ofBits_zero_f32, zero_add]
  refine Finset.sum_congr rfl fun j _ => ?_
  have e : idx_main_v21 i j = ix2 (n0 := 2) (i 0) j :=
    funext fun a => Fin.ext (by match a with | ⟨0, _⟩ => rfl | ⟨1, _⟩ => rfl)
  rw [e]
  exact v20_at x0 x1 (i 0) j

/-- The reference's value for batch element `i 0` is the loss of that batch element. -/
theorem result_eq (x0 : (⟨S2x1x240x320, .f32⟩ : BufTy).Contents (Elt Ideal)) (x1 : (⟨S2x257, .f32⟩ : BufTy).Contents (Elt Ideal))
    (i : S2.Idx) :
    val_main_v22 (F := Ideal) x0 x1 i
      = Chamfer.lossAt (val_main_v4 (F := Ideal) x1) (val_main_v5 (F := Ideal) x0) (i 0) := by
  rw [val_main_v22_apply]
  show val_main_v13 (F := Ideal) x0 x1 i + val_main_v21 (F := Ideal) x0 x1 i = _
  rw [v13_at, v21_at]
  rfl

end Cert.ReferenceIdeal.RefValue

end
-- ==== Proof.Pieces.lean ====
/-
  What each control case of the kernel body leaves behind, as the body's own payloads.

  The body keeps two carried buffers: a column of 256 running minima (one per bin centre) and a single running sum.
  Every load and store of the body goes through the whole-buffer rectangle at zero offsets, so a load reads the
  buffer's contents and a covering store leaves exactly its payload.  Hence, case by case:

  * first tile of a batch (case A): the body first stores the reset values (+inf in every row of the minima column,
    0 in the sum cell) and then reads them back, so the update payloads are taken at the reset values;
  * an inner tile (case B): the update payloads are taken at what the previous point left;
  * last tile of a batch (case C): as in case B, and the output cell is the final payload taken at what the SAME
    body has just stored into the two carried buffers.

  All statements are generic in the float instance.
-/
import proofs.«166850_j21028159881362_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The zero offsets of a rank-2 rectangle, however spelt. -/
theorem hz2 : (![0, 0] : Fin 2 → Nat) = fun _ => 0 := funext fun a => by fin_cases a <;> rfl
/-- The zero offsets of a rank-3 rectangle, however spelt. -/
theorem hz3 : (![0, 0, 0] : Fin 3 → Nat) = fun _ => 0 := funext fun a => by fin_cases a <;> rfl

/-- CASE B, the minima column: the one covering store carries the update payload read at the whole input blocks and
    at the column's contents before the point. -/
theorem scratch0_B (c : Dev nD) (i : grid0.Coords) (arg2 : Memref sig .tc .vmem S1x1x256 .f32) (harg2 : arg2.IsWhole) (arg3 : Memref sig .tc .vmem S1x1x7680 .f32) (harg3 : arg3.IsWhole) (arg4 : Memref sig .tc .vmem S1x1x1 .f32) (harg4 : arg4.IsWhole) (arg5 : Memref sig .tc .vmem S256x1 .f32) (harg5 : arg5.IsWhole) (arg6 : Memref sig .tc .vmem S1x1 .f32) (harg6 : arg6.IsWhole) (hc0 : ¬cond0_0 i) (hc1 : ¬cond0_1 i)
    (x0 : Vec F S1x1x256 .f32) (x1 : Vec F S1x1x7680 .f32) (xs0 : Vec F S256x1 .f32) (xs1 : Vec F S1x1 .f32) :
    sout0_B_0 c i arg2 harg2 arg3 harg3 arg4 harg4 arg5 harg5 arg6 harg6 hc0 hc1 x0 x1 xs0 xs1 = k0_pay4 x0 x1 xs0 := by
  unfold sout0_B_0
  rw [View.read_writes_eq_canon _ _ _ (scover0_B_0 c i arg2 harg2 arg3 harg3 arg4 harg4 arg5 harg5 arg6 harg6 hc0 hc1 x0 x1 xs0 xs1)]
  unfold kernelRun0_B
  dsimp only
  sl_unfold_words
  rw [View.canon_unit_zero (S := S256x1) hz2]
  simp only [View.readAt_eq_ld, harg2.read_unread, harg3.read_unread, harg5.read_unread,
    View.ld_unit_zero (S := S1x1x256) hz3, View.ld_unit_zero (S := S1x1x7680) hz3, View.ld_unit_zero (S := S256x1) hz2]

/-- CASE B, the sum cell: the one covering store carries the update payload read at the whole input blocks and at the
    cell's contents before the point. -/
theorem scratch1_B (c : Dev nD) (i : grid0.Coords) (arg2 : Memref sig .tc .vmem S1x1x256 .f32) (harg2 : arg2.IsWhole) (arg3 : Memref sig .tc .vmem S1x1x7680 .f32) (harg3 : arg3.IsWhole) (arg4 : Memref sig .tc .vmem S1x1x1 .f32) (harg4 : arg4.IsWhole) (arg5 : Memref sig .tc .vmem S256x1 .f32) (harg5 : arg5.IsWhole) (arg6 : Memref sig .tc .vmem S1x1 .f32) (harg6 : arg6.IsWhole) (hc0 : ¬cond0_0 i) (hc1 : ¬cond0_1 i)
    (x0 : Vec F S1x1x256 .f32) (x1 : Vec F S1x1x7680 .f32) (xs0 : Vec F S256x1 .f32) (xs1 : Vec F S1x1 .f32) :
    sout0_B_1 c i arg2 harg2 arg3 harg3 arg4 harg4 arg5 harg5 arg6 harg6 hc0 hc1 x0 x1 xs0 xs1 = k0_pay5 x0 x1 xs1 := by
  unfold sout0_B_1
  rw [View.read_writes_eq_canon _ _ _ (scover0_B_1 c i arg2 harg2 arg3 harg3 arg4 harg4 arg5 harg5 arg6 harg6 hc0 hc1 x0 x1 xs0 xs1)]
  unfold kernelRun0_B
  dsimp only
  sl_unfold_words
  rw [View.canon_unit_zero (S := S1x1) hz2]
  simp only [View.readAt_eq_ld, harg2.read_unread, harg3.read_unread, harg6.read_unread,
    View.ld_unit_zero (S := S1x1x256) hz3, View.ld_unit_zero (S := S1x1x7680) hz3, View.ld_unit_zero (S := S1x1) hz2]

/-- CASE C, the minima column: the same update as in case B. -/
theorem scratch0_C (c : Dev nD) (i : grid0.Coords) (arg2 : Memref sig .tc .vmem S1x1x256 .f32) (harg2 : arg2.IsWhole) (arg3 : Memref sig .tc .vmem S1x1x7680 .f32) (harg3 : arg3.IsWhole) (arg4 : Memref sig .tc .vmem S1x1x1 .f32) (harg4 : arg4.IsWhole) (arg5 : Memref sig .tc .vmem S256x1 .f32) (harg5 : arg5.IsWhole) (arg6 : Memref sig .tc .vmem S1x1 .f32) (harg6 : arg6.IsWhole) (hc0 : ¬cond0_0 i) (hc1 : cond0_1 i)
    (x0 : Vec F S1x1x256 .f32) (x1 : Vec F S1x1x7680 .f32) (xs0 : Vec F S256x1 .f32) (xs1 : Vec F S1x1 .f32) :
    sout0_C_0 c i arg2 harg2 arg3 harg3 arg4 harg4 arg5 harg5 arg6 harg6 hc0 hc1 x0 x1 xs0 xs1 = k0_pay4 x0 x1 xs0 := by
  unfold sout0_C_0
  rw [View.read_writes_eq_canon _ _ _ (scover0_C_0 c i arg2 harg2 arg3 harg3 arg4 harg4 arg5 harg5 arg6 harg6 hc0 hc1 x0 x1 xs0 xs1)]
  unfold kernelRun0_C
  dsimp only
  sl_unfold_words
  rw [View.canon_unit_zero (S := S256x1) hz2]
  simp only [View.readAt_eq_ld, harg2.read_unread, harg3.read_unread, harg5.read_unread,
    View.ld_unit_zero (S := S1x1x256) hz3, View.ld_unit_zero (S := S1x1x7680) hz3, View.ld_unit_zero (S := S256x1) hz2]

/-- CASE C, the sum cell: the same update as in case B. -/
theorem scratch1_C (c : Dev nD) (i : grid0.Coords) (arg2 : Memref sig .tc .vmem S1x1x256 .f32) (harg2 : arg2.IsWhole) (arg3 : Memref sig .tc .vmem S1x1x7680 .f32) (harg3 : arg3.IsWhole) (arg4 : Memref sig .tc .vmem S1x1x1 .f32) (harg4 : arg4.IsWhole) (arg5 : Memref sig .tc .vmem S256x1 .f32) (harg5 : arg5.IsWhole) (arg6 : Memref sig .tc .vmem S1x1 .f32) (harg6 : arg6.IsWhole) (hc0 : ¬cond0_0 i) (hc1 : cond0_1 i)
    (x0 : Vec F S1x1x256 .f32) (x1 : Vec F S1x1x7680 .f32) (xs0 : Vec F S256x1 .f32) (xs1 : Vec F S1x1 .f32) :
    sout0_C_1 c i arg2 harg2 arg3 harg3 arg4 harg4 arg5 harg5 arg6 harg6 hc0 hc1 x0 x1 xs0 xs1 = k0_pay5 x0 x1 xs1 := by
  unfold sout0_C_1
  rw [View.read_writes_eq_canon _ _ _ (scover0_C_1 c i arg2 harg2 arg3 harg3 arg4 harg4 arg5 harg5 arg6 harg6 hc0 hc1 x0 x1 xs0 xs1)]
  unfold kernelRun0_C
  dsimp only
  sl_unfold_words
  rw [View.canon_unit_zero (S := S1x1) hz2]
  simp only [View.readAt_eq_ld, harg2.read_unread, harg3.read_unread, harg6.read_unread,
    View.ld_unit_zero (S := S1x1x256) hz3, View.ld_unit_zero (S := S1x1x7680) hz3, View.ld_unit_zero (S := S1x1) hz2]

/-- CASE A, the minima column: the reset value (+inf in every row) is stored first and read back, so the last covering
    store carries the update payload taken at the reset value. -/
theorem scratch0_A (c : Dev nD) (i : grid0.Coords) (arg2 : Memref sig .tc .vmem S1x1x256 .f32) (harg2 : arg2.IsWhole) (arg3 : Memref sig .tc .vmem S1x1x7680 .f32) (harg3 : arg3.IsWhole) (arg4 : Memref sig .tc .vmem S1x1x1 .f32) (harg4 : arg4.IsWhole) (arg5 : Memref sig .tc .vmem S256x1 .f32) (harg5 : arg5.IsWhole) (arg6 : Memref sig .tc .vmem S1x1 .f32) (harg6 : arg6.IsWhole) (hc0 : cond0_0 i) (hc1 : ¬cond0_1 i)
    (x0 : Vec F S1x1x256 .f32) (x1 : Vec F S1x1x7680 .f32) :
    sout0_A_0 c i arg2 harg2 arg3 harg3 arg4 harg4 arg5 harg5 arg6 harg6 hc0 hc1 x0 x1 = k0_pay4 x0 x1 (k0_pay1 (F := F)) := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S256x1) hz2, View.readCov_unit_zero (S := S256x1) _ hz2]
  simp only [View.readAt_eq_ld, harg2.read_unread, harg3.read_unread,
    View.ld_unit_zero (S := S1x1x256) hz3, View.ld_unit_zero (S := S1x1x7680) hz3]

/-- CASE A, the sum cell: the reset value (zero) is stored first and read back, so the last covering store carries the
    update payload taken at the reset value. -/
theorem scratch1_A (c : Dev nD) (i : grid0.Coords) (arg2 : Memref sig .tc .vmem S1x1x256 .f32) (harg2 : arg2.IsWhole) (arg3 : Memref sig .tc .vmem S1x1x7680 .f32) (harg3 : arg3.IsWhole) (arg4 : Memref sig .tc .vmem S1x1x1 .f32) (harg4 : arg4.IsWhole) (arg5 : Memref sig .tc .vmem S256x1 .f32) (harg5 : arg5.IsWhole) (arg6 : Memref sig .tc .vmem S1x1 .f32) (harg6 : arg6.IsWhole) (hc0 : cond0_0 i) (hc1 : ¬cond0_1 i)
    (x0 : Vec F S1x1x256 .f32) (x1 : Vec F S1x1x7680 .f32) :
    sout0_A_1 c i arg2 harg2 arg3 harg3 arg4 harg4 arg5 harg5 arg6 harg6 hc0 hc1 x0 x1 = k0_pay5 x0 x1 (k0_pay2 (F := F)) := by
  unfold sout0_A_1
  rw [View.read_writes_eq_canon _ _ _ (scover0_A_1 c i arg2 harg2 arg3 harg3 arg4 harg4 arg5 harg5 arg6 harg6 hc0 hc1 x0 x1)]
  unfold kernelRun0_A
  dsimp only
  sl_unfold_words
  rw [View.canon_cons_unit_zero (S := S1x1) hz2, View.readCov_unit_zero (S := S1x1) _ hz2]
  simp only [View.readAt_eq_ld, harg2.read_unread, harg3.read_unread,
    View.ld_unit_zero (S := S1x1x256) hz3, View.ld_unit_zero (S := S1x1x7680) hz3]

/-- CASE C, the output cell: its one covering store carries the final payload, whose two loads read back what this same
    body has just stored into the minima column and the sum cell — the two update payloads. -/
theorem out_C (c : Dev nD) (i : grid0.Coords) (arg2 : Memref sig .tc .vmem S1x1x256 .f32) (harg2 : arg2.IsWhole) (arg3 : Memref sig .tc .vmem S1x1x7680 .f32) (harg3 : arg3.IsWhole) (arg4 : Memref sig .tc .vmem S1x1x1 .f32) (harg4 : arg4.IsWhole) (arg5 : Memref sig .tc .vmem S256x1 .f32) (harg5 : arg5.IsWhole) (arg6 : Memref sig .tc .vmem S1x1 .f32) (harg6 : arg6.IsWhole) (hc0 : ¬cond0_0 i) (hc1 : cond0_1 i)
    (x0 : Vec F S1x1x256 .f32) (x1 : Vec F S1x1x7680 .f32) (xs0 : Vec F S256x1 .f32) (xs1 : Vec F S1x1 .f32) :
    out0_C_2 c i arg2 harg2 arg3 harg3 arg4 harg4 arg5 harg5 arg6 harg6 hc0 hc1 x0 x1 xs0 xs1 = k0_pay6 (k0_pay4 x0 x1 xs0) (k0_pay5 x0 x1 xs1) := by
  unfold out0_C_2
  rw [View.read_writes_eq_canon _ _ _ (cover0_C_2 c i arg2 harg2 arg3 harg3 arg4 harg4 arg5 harg5 arg6 harg6 hc0 hc1 x0 x1 xs0 xs1)]
  unfold kernelRun0_C
  dsimp only
  sl_unfold_words
  rw [View.canon_unit_zero (S := S1x1x1) hz3, View.readCov_unit_zero (S := S256x1) _ hz2,
    View.readCov_unit_zero (S := S1x1) _ hz2]
  simp only [View.readAt_eq_ld, harg2.read_unread, harg3.read_unread, harg5.read_unread, harg6.read_unread,
    View.ld_unit_zero (S := S1x1x256) hz3, View.ld_unit_zero (S := S1x1x7680) hz3,
    View.ld_unit_zero (S := S256x1) hz2, View.ld_unit_zero (S := S1x1) hz2]

end Cert.KernelIdeal.Pieces
end
-- ==== Proof.Payloads.lean ====
/-
  The kernel body's six stored values, each read at one index, on the extended reals.

  With centres `c r` (256 of them, held as a `[1, 1, 256]` block) and one tile's depths `d j` (7680 of them, held as a
  `[1, 1, 7680]` block), the body forms the table `D (r, j) = (c r - d j)²` by turning the centres into a column, repeating
  that column along the depths and the depths' row along the centres, subtracting and squaring. From the table it takes,
  per centre, the least entry of its row and meets it with the value carried in the first scratch; and, per depth, the
  least entry of its column, sums those over the tile and adds the sum to the value carried in the second scratch. The
  scratches start at `+∞` and at `0`; at the last tile the first scratch's entries are summed and the second's one
  entry added.

  Each statement below says what one of these values is at an index given by its coordinates: the operations that only
  rearrange (casts between shapes with the same entries in the same order, the transpose, the two repetitions) read one
  entry of their operand; subtraction, product, sum and minimum act entry by entry; a minimum taken along one axis from
  `+∞` is the infimum over that axis's coordinates, and a sum taken along one axis from `0` is the sum over them.
-/
import proofs.«166850_j21028159881362_1_alg».proof.Proof.Gen.KernelIdeal.Skeleton
import proofs.«166850_j21028159881362_1_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

noncomputable section

open scoped BigOperators

namespace Cert.KernelIdeal.Payloads

open Cert.KernelIdeal Cert.KernelIdeal.Gen Idealize.ShloMosaic Idealize.ShloMosaic.ValueIdx

/-- The word of the single-precision positive infinity is the top of the extended reals. -/
theorem ofBits_inf_f32 : Ideal.ofBits .f32 0x7F800000#32 = ⊤ := by simp [Ideal.ofBits, Ideal.ieee]

section Layout
variable {α : Type}

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-- A `<minimumf>` reduction over one axis is the fold of `min` from the accumulator's value over that axis's
    coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

section Reductions

/-- Over result row `r` of a `[256, 7680]` array reduced along its columns, the index with column `j` put back. -/
theorem lift_row (h : S256x7680.Reduces [1] S256) (r : Fin 256) (j : Fin 7680) : h.lift (ix1 r) j = ix2 r j := by
  funext c
  match c with
  | ⟨0, _⟩ => exact Fin.ext rfl
  | ⟨1, _⟩ => exact Fin.ext rfl

/-- Over result column `j` of a `[256, 7680]` array reduced along its rows, the index with row `r` put back. -/
theorem lift_col (h : S256x7680.Reduces [0] S7680) (j : Fin 7680) (r : Fin 256) : h.lift (ix1 j) r = ix2 r j := by
  funext c
  match c with
  | ⟨0, _⟩ => exact Fin.ext rfl
  | ⟨1, _⟩ => exact Fin.ext rfl

/-- Over the one result of a row `[1, 7680]` reduced along its columns, the index with column `j` put back. -/
theorem lift_lane (h : S1x7680.Reduces [1] S1) (u : Fin 1) (j : Fin 7680) : h.lift (ix1 u) j = ix2 u j := by
  funext c
  match c with
  | ⟨0, _⟩ => exact Fin.ext rfl
  | ⟨1, _⟩ => exact Fin.ext rfl

/-- Over the one result of a column `[256, 1]` reduced along its rows, the index with row `r` put back. -/
theorem lift_sub (h : S256x1.Reduces [0] S1) (u : Fin 1) (r : Fin 256) : h.lift (ix1 u) r = ix2 r u := by
  funext c
  match c with
  | ⟨0, _⟩ => exact Fin.ext rfl
  | ⟨1, _⟩ => exact Fin.ext rfl

/-- The minimum along the columns from `+∞`, at row `r`, is the infimum over the columns. -/
theorem rowMin_apply (src : FVec Ideal S256x7680 .f32) (h : S256x7680.Reduces [1] S256) (hφ : FKind.Formats .f32)
    (hacc : (0x7F800000#32 : BitVec 32) = FKind.minimumf.neutral .f32 hφ) (r : Fin 256) :
    multiReduction (F := Ideal) .minimumf [1] S256 src 0x7F800000#32 h hφ hacc (ix1 r) = ⨅ j : Fin 7680, src (ix2 r j) := by
  refine (multiReduction_minimumf_single src _ h hφ hacc (ix1 r)).trans ?_
  have e : (src ∘ h.lift (ix1 r)) = fun j : Fin 7680 => src (ix2 r j) := funext fun j => congrArg src (lift_row h r j)
  refine (congrArg (Finset.univ.fold min (FloatOps.ofBits .f32 0x7F800000#32)) e).trans ?_
  refine (congrArg (fun b => (Finset.univ : Finset (Fin 7680)).fold min b fun j : Fin 7680 => src (ix2 r j)) ofBits_inf_f32).trans ?_
  exact Chamfer.fold_min_top _

/-- The minimum along the rows from `+∞`, at column `j`, is the infimum over the rows. -/
theorem colMin_apply (src : FVec Ideal S256x7680 .f32) (h : S256x7680.Reduces [0] S7680) (hφ : FKind.Formats .f32)
    (hacc : (0x7F800000#32 : BitVec 32) = FKind.minimumf.neutral .f32 hφ) (j : Fin 7680) :
    multiReduction (F := Ideal) .minimumf [0] S7680 src 0x7F800000#32 h hφ hacc (ix1 j) = ⨅ r : Fin 256, src (ix2 r j) := by
  refine (multiReduction_minimumf_single src _ h hφ hacc (ix1 j)).trans ?_
  have e : (src ∘ h.lift (ix1 j)) = fun r : Fin 256 => src (ix2 r j) := funext fun r => congrArg src (lift_col h j r)
  refine (congrArg (Finset.univ.fold min (FloatOps.ofBits .f32 0x7F800000#32)) e).trans ?_
  refine (congrArg (fun b => (Finset.univ : Finset (Fin 256)).fold min b fun r : Fin 256 => src (ix2 r j)) ofBits_inf_f32).trans ?_
  exact Chamfer.fold_min_top _

/-- The sum along the columns of a row `[1, 7680]` is the sum of its entries. -/
theorem laneSum_apply (src : FVec Ideal S1x7680 .f32) (h : S1x7680.Reduces [1] S1) (hφ : FKind.Formats .f32)
    (hacc : (0x00000000#32 : BitVec 32) = FKind.add.neutral .f32 hφ) (u : Fin 1) :
    multiReduction (F := Ideal) .add [1] S1 src 0x00000000#32 h hφ hacc (ix1 u) = ∑ j : Fin 7680, src (ix2 u j) := by
  refine (Ideal.multiReduction_add_single src _ h hφ hacc (ix1 u)).trans ?_
  exact Finset.sum_congr rfl fun j _ => congrArg src (lift_lane h u j)

/-- The sum along the rows of a column `[256, 1]` is the sum of its entries. -/
theorem subSum_apply (src : FVec Ideal S256x1 .f32) (h : S256x1.Reduces [0] S1) (hφ : FKind.Formats .f32)
    (hacc : (0x00000000#32 : BitVec 32) = FKind.add.neutral .f32 hφ) (u : Fin 1) :
    multiReduction (F := Ideal) .add [0] S1 src 0x00000000#32 h hφ hacc (ix1 u) = ∑ r : Fin 256, src (ix2 r u) := by
  refine (Ideal.multiReduction_add_single src _ h hφ hacc (ix1 u)).trans ?_
  exact Finset.sum_congr rfl fun r _ => congrArg src (lift_sub h u r)

end Reductions

/-- The first scratch's reset value: `+∞` in every row. -/
theorem pay1_apply (r : Fin 256) : k0_pay1 (F := Ideal) (ix2 r (0 : Fin 1)) = ⊤ := by
  unfold k0_pay1
  rw [shapeCast_self]
  exact ofBits_inf_f32

/-- The second scratch's reset value: zero. -/
theorem pay2_apply : k0_pay2 (F := Ideal) (ix2 (0 : Fin 1) (0 : Fin 1)) = 0 := by
  unfold k0_pay2
  rw [shapeCast_self]
  exact Ideal.ofBits_zero_f32

/-- The table of squared differences: entry `(r, j)` is centre `r` against depth `j`. -/
theorem pay3_apply (x0 : Vec Ideal S1x1x256 .f32) (x1 : Vec Ideal S1x1x7680 .f32) (r : Fin 256) (j : Fin 7680) :
    k0_pay3 x0 x1 (ix2 r j) = Chamfer.sq (x0 (ix3 (0 : Fin 1) (0 : Fin 1) r)) (x1 (ix3 (0 : Fin 1) (0 : Fin 1) j)) := by
  unfold k0_pay3 Chamfer.sq
  rw [mulf_apply, subf_apply, broadcastTo_a1_ab_apply, broadcastTo_1b_ab_apply, transpose_ix2_apply,
    shapeCast_1ab_ab_apply, shapeCast_1ab_ab_apply]

/-- The running minimum per centre: the carried value met with the infimum over the tile's depths. -/
theorem pay4_apply (x0 : Vec Ideal S1x1x256 .f32) (x1 : Vec Ideal S1x1x7680 .f32) (s : Vec Ideal S256x1 .f32) (r : Fin 256) :
    k0_pay4 x0 x1 s (ix2 r (0 : Fin 1))
      = min (s (ix2 r (0 : Fin 1))) (⨅ j : Fin 7680, Chamfer.sq (x0 (ix3 (0 : Fin 1) (0 : Fin 1) r)) (x1 (ix3 (0 : Fin 1) (0 : Fin 1) j))) := by
  unfold k0_pay4
  rw [shapeCast_self, minimumf_apply, shapeCast_a_a1_apply]
  refine congrArg (min (s (ix2 r (0 : Fin 1)))) ?_
  refine (rowMin_apply (k0_pay3 x0 x1) _ _ _ r).trans ?_
  exact iInf_congr fun j => pay3_apply x0 x1 r j

/-- The running sum: the carried value plus the sum over the tile's depths of each one's infimum over the centres. -/
theorem pay5_apply (x0 : Vec Ideal S1x1x256 .f32) (x1 : Vec Ideal S1x1x7680 .f32) (s : Vec Ideal S1x1 .f32) :
    k0_pay5 x0 x1 s (ix2 (0 : Fin 1) (0 : Fin 1))
      = s (ix2 (0 : Fin 1) (0 : Fin 1)) + ∑ j : Fin 7680, ⨅ r : Fin 256, Chamfer.sq (x0 (ix3 (0 : Fin 1) (0 : Fin 1) r)) (x1 (ix3 (0 : Fin 1) (0 : Fin 1) j)) := by
  unfold k0_pay5
  rw [shapeCast_self, addf_apply, shapeCast_a_1a_apply]
  refine congrArg (s (ix2 (0 : Fin 1) (0 : Fin 1)) + ·) ?_
  refine (laneSum_apply _ _ _ _ (0 : Fin 1)).trans ?_
  refine Finset.sum_congr rfl fun j _ => ?_
  rw [shapeCast_a_1a_apply]
  refine (colMin_apply (k0_pay3 x0 x1) _ _ _ j).trans ?_
  exact iInf_congr fun r => pay3_apply x0 x1 r j

/-- The value written out at the last tile: the sum of the per-centre minima plus the running sum. -/
theorem pay6_apply (s0 : Vec Ideal S256x1 .f32) (s1 : Vec Ideal S1x1 .f32) :
    k0_pay6 s0 s1 (ix3 (0 : Fin 1) (0 : Fin 1) (0 : Fin 1))
      = (∑ r : Fin 256, s0 (ix2 r (0 : Fin 1))) + s1 (ix2 (0 : Fin 1) (0 : Fin 1)) := by
  unfold k0_pay6
  rw [shapeCast_ab_1ab_apply, addf_apply, shapeCast_a_1a_apply]
  refine congrArg (· + s1 (ix2 (0 : Fin 1) (0 : Fin 1))) ?_
  exact subSum_apply s0 _ _ _ (0 : Fin 1)

end Cert.KernelIdeal.Payloads

end
-- ==== Proof.Blocks.lean ====
/-
  What the kernel's two input windows hold, index by index.

  The grid is 2 × 10: point `10 b + k` handles tile `k` of batch element `b`. The first window's block there is row
  `b` of the array of bin centres (all 256 of them, whatever `k`); the second window's block is the `k`-th stretch of
  7680 depths of row `b` of the array of depths, so its entry `j` is depth `7680 k + j`. The two arrays themselves are
  what the host operations before the region leave: the centres are half the sum of each pair of neighbouring bin
  edges, the depths are the target image flattened per batch element; both are then given a unit middle axis, which
  a row-major reading does not see.
-/
import proofs.«166850_j21028159881362_1_alg».proof.Proof.Gen.KernelIdeal.Frame
import proofs.«166850_j21028159881362_1_alg».proof.Proof.Spec
import Idealize.ShloMosaic.Lib.ValueIdx
import Idealize.ShloMosaic.Lib.Pipeline.Value
import Idealize.ShloMosaic.Lib.ValueLayout
import Idealize.ShloMosaic.Lib.StableHlo.Run
import Idealize.ShloMosaic.Lib.Tactic

set_option maxRecDepth 16384

noncomputable section

namespace Cert.KernelIdeal.Blocks

open Cert.KernelIdeal Cert.KernelIdeal.Gen Idealize.ShloMosaic Idealize.ShloMosaic.TcCoe Idealize.SL.Sem Idealize.ShloMosaic.ValueIdx

variable {F : FTy → Type} [FloatOps F] (m : (ℓ : Loc nD τ sig) → Buf (Elt F) ℓ)

/-! ## The grid's points -/

/-- The grid point of batch `b`, tile `k`: `10 b + k`. -/
def pt (b : Fin 2) (k : Fin 10) : Fin cfg0.N :=
  ⟨10 * b.val + k.val, by rw [show cfg0.N = 20 from N_0]; have := b.isLt; have := k.isLt; omega⟩

theorem pt_val (b : Fin 2) (k : Fin 10) : (pt b k).val = 10 * b.val + k.val := rfl

/-! ## Where the windows' blocks sit -/

/-- The first window's block index at point `t` is `(t / 10, 0, 0)`: the batch element, and nothing of the tile. -/
theorem centreIdx : ∀ t : Fin cfg0.N,
    win0_0.index t (0 : Fin 3) = t.val / 10 ∧ win0_0.index t (1 : Fin 3) = 0 ∧ win0_0.index t (2 : Fin 3) = 0 :=
  (by decide +kernel : ∀ t : Fin grid0.N, _)

/-- The second window's block index at point `t` is `(t / 10, 0, t % 10)`: the batch element and the tile. -/
theorem depthIdx : ∀ t : Fin cfg0.N,
    win0_1.index t (0 : Fin 3) = t.val / 10 ∧ win0_1.index t (1 : Fin 3) = 0 ∧ win0_1.index t (2 : Fin 3) = t.val % 10 :=
  (by decide +kernel : ∀ t : Fin grid0.N, _)

/-- At a point of batch element `b` the first window's block is row `b` of the centres. -/
theorem iblk0_at (c : Dev nD) (t : Fin cfg0.N) (b : Fin 2) (hb : t.val / 10 = b.val) (r : Fin 256) :
    (iblk m c 0 t : Vec F S1x1x256 .f32) (ix3 (0 : Fin 1) (0 : Fin 1) r) = V m c main_v6 (ix3 b (0 : Fin 1) r) := by
  have hi := centreIdx t
  unfold iblk
  rw [View.read_apply]
  show V m c main_v6 _ = V m c main_v6 _
  congr 1
  funext a
  apply Fin.ext
  match a with
  | ⟨0, _⟩ => show win0_0.index t 0 * 1 + 1 * 0 = b.val; rw [hi.1]; omega
  | ⟨1, _⟩ => show win0_0.index t 1 * 1 + 1 * 0 = 0; rw [hi.2.1]
  | ⟨2, _⟩ => show win0_0.index t 2 * 256 + 1 * r.val = r.val; rw [hi.2.2]; omega

/-- At the point of batch element `b` and tile `k` the second window's block is the stretch of row `b` of the depths
    that starts at `7680 k`. -/
theorem iblk1_at (c : Dev nD) (t : Fin cfg0.N) (b : Fin 2) (k : Fin 10) (hb : t.val / 10 = b.val) (hk : t.val % 10 = k.val)
    (j : Fin 7680) :
    (iblk m c 1 t : Vec F S1x1x7680 .f32) (ix3 (0 : Fin 1) (0 : Fin 1) j)
      = V m c main_v7 (ix3 b (0 : Fin 1) (Chamfer.tileIdx k j)) := by
  have hi := depthIdx t
  unfold iblk
  rw [View.read_apply]
  show V m c main_v7 _ = V m c main_v7 _
  congr 1
  funext a
  apply Fin.ext
  match a with
  | ⟨0, _⟩ => show win0_1.index t 0 * 1 + 1 * 0 = b.val; rw [hi.1]; omega
  | ⟨1, _⟩ => show win0_1.index t 1 * 1 + 1 * 0 = 0; rw [hi.2.1]
  | ⟨2, _⟩ => show win0_1.index t 2 * 7680 + 1 * j.val = 7680 * k.val + j.val; rw [hi.2.2]; omega

theorem iblk0_apply (c : Dev nD) (b : Fin 2) (k : Fin 10) (r : Fin 256) :
    (iblk m c 0 (pt b k) : Vec F S1x1x256 .f32) (ix3 (0 : Fin 1) (0 : Fin 1) r) = V m c main_v6 (ix3 b (0 : Fin 1) r) :=
  iblk0_at m c (pt b k) b (by have := pt_val b k; have := k.isLt; omega) r

theorem iblk1_apply (c : Dev nD) (b : Fin 2) (k : Fin 10) (j : Fin 7680) :
    (iblk m c 1 (pt b k) : Vec F S1x1x7680 .f32) (ix3 (0 : Fin 1) (0 : Fin 1) j)
      = V m c main_v7 (ix3 b (0 : Fin 1) (Chamfer.tileIdx k j)) :=
  iblk1_at m c (pt b k) b k (by have := pt_val b k; have := k.isLt; omega) (by have := pt_val b k; have := k.isLt; omega) j

/-! ## What the arrays behind the windows hold -/

/-- The bin centres as @main's host operations compute them from the edges: half the sum of the two shifted slices. -/
def centres (x1 : (⟨S2x257, .f32⟩ : BufTy).Contents (Elt F)) : (⟨S2x256, .f32⟩ : BufTy).Contents (Elt F) :=
  mulf (broadcastInDim S2x256 ![] bcast_S_S2x256 (constant S_ .f32 0x3F000000#32))
    (addf (extractStridedSlice S2x256 ![0, 0] x1 slices_S2x257_S2x256_0_0)
      (extractStridedSlice S2x256 ![0, 1] x1 slices_S2x257_S2x256_0_1))

/-- The depths: the target array flattened per batch element. -/
def depths (x0 : (⟨S2x1x240x320, .f32⟩ : BufTy).Contents (Elt F)) : (⟨S2x76800, .f32⟩ : BufTy).Contents (Elt F) :=
  shapeCast S2x76800 x0 shapeCasts_S2x1x240x320_S2x76800

/-- The first window's array is the centres with a unit middle axis inserted. -/
theorem V_main_v6_eq (c : Dev nD) :
    (V m c main_v6 : S2x1x256.Idx → F .f32)
      = shapeCast S2x1x256 (centres (m ((c : Thread nD τ).loc main_arg1))) shapeCasts_S2x256_S2x1x256 := by
  show StableHlo.after hostOps0 (fun b => m (c, b)) (Proc.devRef .tc main_v6) = _
  after_results
  rfl

/-- The second window's array is the depths with a unit middle axis inserted. -/
theorem V_main_v7_eq (c : Dev nD) :
    (V m c main_v7 : S2x1x76800.Idx → F .f32)
      = shapeCast S2x1x76800 (depths (m ((c : Thread nD τ).loc main_arg0))) shapeCasts_S2x76800_S2x1x76800 := by
  show StableHlo.after hostOps0 (fun b => m (c, b)) (Proc.devRef .tc main_v7) = _
  after_results
  rfl

/-- Inserting a unit middle axis moves nothing: entry `(b, 0, r)` is entry `(b, r)`, both at row-major position
    `256 b + r`. -/
theorem V_main_v6_apply (c : Dev nD) (b : Fin 2) (r : Fin 256) :
    V m c main_v6 (ix3 b (0 : Fin 1) r) = centres (m ((c : Thread nD τ).loc main_arg1)) (ix2 b r) := by
  refine (congrFun (V_main_v6_eq m c) (ix3 b (0 : Fin 1) r)).trans ?_
  exact shapeCast_apply _ shapeCasts_S2x256_S2x1x256 (ix3 b (0 : Fin 1) r) (ix2 b r)
    (by rw [Shape.rowMajor_val_two, Shape.rowMajor_val_three]
        show b.val * 256 + r.val = (b.val * 1 + 0) * 256 + r.val
        omega)

/-- The same for the depths: entry `(b, 0, j)` is entry `(b, j)`, both at row-major position `76800 b + j`. -/
theorem V_main_v7_apply (c : Dev nD) (b : Fin 2) (j : Fin 76800) :
    V m c main_v7 (ix3 b (0 : Fin 1) j) = depths (m ((c : Thread nD τ).loc main_arg0)) (ix2 b j) := by
  refine (congrFun (V_main_v7_eq m c) (ix3 b (0 : Fin 1) j)).trans ?_
  exact shapeCast_apply _ shapeCasts_S2x76800_S2x1x76800 (ix3 b (0 : Fin 1) j) (ix2 b j)
    (by rw [Shape.rowMajor_val_two, Shape.rowMajor_val_three]
        show b.val * 76800 + j.val = (b.val * 1 + 0) * 76800 + j.val
        omega)

end Cert.KernelIdeal.Blocks

end
-- ==== Proof.Streamed.lean ====
/-
  What the kernel's two carried buffers hold after each grid point, and hence what it writes out.

  Grid point `10 b + k` streams tile `k` (7680 depths) of batch element `b`. The column of 256 running minima is
  reset to `⊤` at `k = 0` and then met, row by row, with the tile's nearest squared distance to that row's bin
  centre; the running sum is reset to `0` at `k = 0` and then increased by the tile's sum of each depth's nearest
  squared distance to a centre. So after tile `k` they hold the minimum, respectively the sum, over the tiles
  `0 … k`, and after tile 9 over all 76800 depths: at that point the body writes out the sum of the column plus the
  running sum, which is the loss of batch element `b` (an infimum, and a sum, over all depths is the one over the
  tiles of the ones within them).
-/
import proofs.«166850_j21028159881362_1_alg».proof.Proof.Gen.KernelIdeal.Frame
import proofs.«166850_j21028159881362_1_alg».proof.Proof.Spec
import proofs.«166850_j21028159881362_1_alg».proof.Proof.Pieces
import proofs.«166850_j21028159881362_1_alg».proof.Proof.Payloads
import proofs.«166850_j21028159881362_1_alg».proof.Proof.Blocks

noncomputable section

open scoped BigOperators
open Idealize.ShloMosaic Idealize.ShloMosaic.TcCoe Idealize.SL.Sem Idealize.ShloMosaic.ValueIdx

namespace Cert.KernelIdeal.Streamed

open Cert.KernelIdeal Cert.KernelIdeal.Gen Cert.KernelIdeal.Blocks

/-! ## The carried buffers after a point, as payloads (any float instance) -/

section Generic

variable {F : FTy → Type} [FloatOps F]
variable (m : (ℓ : Loc nD τ sig) → Buf (Elt F) ℓ)

/-- The carried contents depend on the point's position only. -/
theorem outsAt0_congr (c : Dev nD) {n n' : ℕ} (e : n = n') (h : n < cfg0.N) :
    outsAt0 m c n h = outsAt0 m c n' (e ▸ h) := by
  subst e; rfl

/-- At a batch element's first tile both buffers are updated from their reset values. -/
theorem first (c : Dev nD) (t : Fin cfg0.N) (h0 : t.val % 10 = 0) :
    (outsAt0 m c t.val t.isLt).2.1 = k0_pay4 (iblk m c 0 t) (iblk m c 1 t) (k0_pay1 (F := F))
    ∧ (outsAt0 m c t.val t.isLt).2.2 = k0_pay5 (iblk m c 0 t) (iblk m c 1 t) (k0_pay2 (F := F)) := by
  have h1 : ¬t.val % 10 = 9 := by omega
  rw [outsAt0_A m c t h0 h1]
  exact ⟨Pieces.scratch0_A c (grid0.coords t) (ms0_0 t) (hs0_0 t) (ms0_1 t) (hs0_1 t) (ms0_2 t) (hs0_2 t) scM0_0
      (Memref.isWhole_whole _) scM0_1 (Memref.isWhole_whole _) ((hcond0_0 t).mpr h0) (fun h => h1 ((hcond0_1 t).mp h))
      (iblk m c 0 t) (iblk m c 1 t),
    Pieces.scratch1_A c (grid0.coords t) (ms0_0 t) (hs0_0 t) (ms0_1 t) (hs0_1 t) (ms0_2 t) (hs0_2 t) scM0_0
      (Memref.isWhole_whole _) scM0_1 (Memref.isWhole_whole _) ((hcond0_0 t).mpr h0) (fun h => h1 ((hcond0_1 t).mp h))
      (iblk m c 0 t) (iblk m c 1 t)⟩

/-- At every later tile both buffers are updated from what the point before left. -/
theorem later (c : Dev nD) (t : Fin cfg0.N) (h0 : ¬t.val % 10 = 0) :
    (outsAt0 m c t.val t.isLt).2.1
        = k0_pay4 (iblk m c 0 t) (iblk m c 1 t) (outsAt0 m c (t.val - 1) (Nat.lt_of_le_of_lt (Nat.sub_le _ _) t.isLt)).2.1
    ∧ (outsAt0 m c t.val t.isLt).2.2
        = k0_pay5 (iblk m c 0 t) (iblk m c 1 t) (outsAt0 m c (t.val - 1) (Nat.lt_of_le_of_lt (Nat.sub_le _ _) t.isLt)).2.2 := by
  by_cases h1 : t.val % 10 = 9
  · rw [outsAt0_C m c t h0 h1]
    dsimp only
    exact ⟨Pieces.scratch0_C c (grid0.coords t) (ms0_0 t) (hs0_0 t) (ms0_1 t) (hs0_1 t) (ms0_2 t) (hs0_2 t) scM0_0
        (Memref.isWhole_whole _) scM0_1 (Memref.isWhole_whole _) (fun h => h0 ((hcond0_0 t).mp h)) ((hcond0_1 t).mpr h1)
        (iblk m c 0 t) (iblk m c 1 t) _ _,
      Pieces.scratch1_C c (grid0.coords t) (ms0_0 t) (hs0_0 t) (ms0_1 t) (hs0_1 t) (ms0_2 t) (hs0_2 t) scM0_0
        (Memref.isWhole_whole _) scM0_1 (Memref.isWhole_whole _) (fun h => h0 ((hcond0_0 t).mp h)) ((hcond0_1 t).mpr h1)
        (iblk m c 0 t) (iblk m c 1 t) _ _⟩
  · rw [outsAt0_B m c t h0 h1]
    dsimp only
    exact ⟨Pieces.scratch0_B c (grid0.coords t) (ms0_0 t) (hs0_0 t) (ms0_1 t) (hs0_1 t) (ms0_2 t) (hs0_2 t) scM0_0
        (Memref.isWhole_whole _) scM0_1 (Memref.isWhole_whole _) (fun h => h0 ((hcond0_0 t).mp h)) (fun h => h1 ((hcond0_1 t).mp h))
        (iblk m c 0 t) (iblk m c 1 t) _ _,
      Pieces.scratch1_B c (grid0.coords t) (ms0_0 t) (hs0_0 t) (ms0_1 t) (hs0_1 t) (ms0_2 t) (hs0_2 t) scM0_0
        (Memref.isWhole_whole _) scM0_1 (Memref.isWhole_whole _) (fun h => h0 ((hcond0_0 t).mp h)) (fun h => h1 ((hcond0_1 t).mp h))
        (iblk m c 0 t) (iblk m c 1 t) _ _⟩

/-- At a batch element's last tile the output cell is the final payload of the two buffers as the same point leaves them. -/
theorem last (c : Dev nD) (t : Fin cfg0.N) (h0 : ¬t.val % 10 = 0) (h1 : t.val % 10 = 9) :
    (outsAt0 m c t.val t.isLt).1 = k0_pay6 (outsAt0 m c t.val t.isLt).2.1 (outsAt0 m c t.val t.isLt).2.2 := by
  rw [outsAt0_C m c t h0 h1]
  dsimp only
  rw [Pieces.out_C, Pieces.scratch0_C, Pieces.scratch1_C]

end Generic

/-! ## The same on the extended reals, entry by entry -/

section AtIdeal

variable (m : (ℓ : Loc nD τ sig) → Buf (Elt Ideal) ℓ)

/-- Batch element `b`'s bin centres, as the region finds them. -/
def bc (c : Dev nD) (b : Fin 2) (r : Fin 256) : EReal := V m c main_v6 (ix3 b (0 : Fin 1) r)
/-- Batch element `b`'s depths, as the region finds them. -/
def td (c : Dev nD) (b : Fin 2) (j : Fin 76800) : EReal := V m c main_v7 (ix3 b (0 : Fin 1) j)

/-- Row `r` of the minima column after tile `k` of batch element `b`. -/
def colAfter (c : Dev nD) (b : Fin 2) (r : Fin 256) (k : ℕ) (hk : k < 9 + 1) : EReal :=
  (outsAt0 m c (pt b ⟨k, hk⟩).val (pt b ⟨k, hk⟩).isLt).2.1 (ix2 r (0 : Fin 1))
/-- The running sum after tile `k` of batch element `b`. -/
def sumAfter (c : Dev nD) (b : Fin 2) (k : ℕ) (hk : k < 9 + 1) : EReal :=
  (outsAt0 m c (pt b ⟨k, hk⟩).val (pt b ⟨k, hk⟩).isLt).2.2 (ix2 (0 : Fin 1) (0 : Fin 1))

/-- Over the point's two input blocks, a row's nearest squared distance within the tile. -/
theorem tile_min (c : Dev nD) (b : Fin 2) (r : Fin 256) (k : Fin 10) :
    (⨅ j : Fin 7680, Chamfer.sq ((iblk m c 0 (pt b k) : Vec Ideal S1x1x256 .f32) (ix3 (0 : Fin 1) (0 : Fin 1) r))
        ((iblk m c 1 (pt b k) : Vec Ideal S1x1x7680 .f32) (ix3 (0 : Fin 1) (0 : Fin 1) j)))
      = Chamfer.tileMin (bc m c b) (td m c b) r k := by
  unfold Chamfer.tileMin bc td
  refine iInf_congr fun j => ?_
  rw [iblk0_apply, iblk1_apply]

/-- Over the point's two input blocks, the tile's sum of each depth's nearest squared distance to a centre. -/
theorem tile_sum (c : Dev nD) (b : Fin 2) (k : Fin 10) :
    (∑ j : Fin 7680, ⨅ r : Fin 256, Chamfer.sq ((iblk m c 0 (pt b k) : Vec Ideal S1x1x256 .f32) (ix3 (0 : Fin 1) (0 : Fin 1) r))
        ((iblk m c 1 (pt b k) : Vec Ideal S1x1x7680 .f32) (ix3 (0 : Fin 1) (0 : Fin 1) j)))
      = Chamfer.tileSum (bc m c b) (td m c b) k := by
  unfold Chamfer.tileSum bc td
  refine Finset.sum_congr rfl fun j _ => iInf_congr fun r => ?_
  rw [iblk0_apply, iblk1_apply]

theorem first_pt (b : Fin 2) : (pt b ⟨0, Nat.succ_pos 9⟩).val % 10 = 0 := by
  show (10 * b.val + 0) % 10 = 0; omega
theorem later_pt (b : Fin 2) (k : ℕ) (h : k + 1 < 9 + 1) : ¬(pt b ⟨k + 1, h⟩).val % 10 = 0 := by
  show ¬(10 * b.val + (k + 1)) % 10 = 0; omega
theorem pred_pt (b : Fin 2) (k : ℕ) (h : k + 1 < 9 + 1) :
    (pt b ⟨k + 1, h⟩).val - 1 = (pt b ⟨k, Nat.lt_of_succ_lt h⟩).val := by
  show 10 * b.val + (k + 1) - 1 = 10 * b.val + k; omega

/-- After the first tile a row holds that tile's minimum (the reset value `⊤` is absorbed). -/
theorem col_zero (c : Dev nD) (b : Fin 2) (r : Fin 256) :
    colAfter m c b r 0 (Nat.succ_pos 9) = Chamfer.tileMin (bc m c b) (td m c b) r ⟨0, Nat.succ_pos 9⟩ := by
  unfold colAfter
  rw [(first m c (pt b ⟨0, Nat.succ_pos 9⟩) (first_pt b)).1]
  refine (Payloads.pay4_apply (iblk m c 0 (pt b ⟨0, Nat.succ_pos 9⟩)) (iblk m c 1 (pt b ⟨0, Nat.succ_pos 9⟩))
    (k0_pay1 (F := Ideal)) r).trans ?_
  rw [Payloads.pay1_apply, min_top_left]
  exact tile_min m c b r ⟨0, Nat.succ_pos 9⟩

/-- Each later tile meets the row with that tile's minimum. -/
theorem col_succ (c : Dev nD) (b : Fin 2) (r : Fin 256) (k : ℕ) (h : k + 1 < 9 + 1) :
    colAfter m c b r (k + 1) h
      = min (colAfter m c b r k (Nat.lt_of_succ_lt h)) (Chamfer.tileMin (bc m c b) (td m c b) r ⟨k + 1, h⟩) := by
  unfold colAfter
  rw [(later m c (pt b ⟨k + 1, h⟩) (later_pt b k h)).1]
  refine (Payloads.pay4_apply (iblk m c 0 (pt b ⟨k + 1, h⟩)) (iblk m c 1 (pt b ⟨k + 1, h⟩)) _ r).trans ?_
  rw [tile_min m c b r ⟨k + 1, h⟩, outsAt0_congr m c (pred_pt b k h)]

/-- After the first tile the running sum is that tile's sum (the reset value `0` is absorbed). -/
theorem sum_zero (c : Dev nD) (b : Fin 2) :
    sumAfter m c b 0 (Nat.succ_pos 9) = Chamfer.tileSum (bc m c b) (td m c b) ⟨0, Nat.succ_pos 9⟩ := by
  unfold sumAfter
  rw [(first m c (pt b ⟨0, Nat.succ_pos 9⟩) (first_pt b)).2]
  refine (Payloads.pay5_apply (iblk m c 0 (pt b ⟨0, Nat.succ_pos 9⟩)) (iblk m c 1 (pt b ⟨0, Nat.succ_pos 9⟩))
    (k0_pay2 (F := Ideal))).trans ?_
  rw [Payloads.pay2_apply, zero_add]
  exact tile_sum m c b ⟨0, Nat.succ_pos 9⟩

/-- Each later tile adds its sum. -/
theorem sum_succ (c : Dev nD) (b : Fin 2) (k : ℕ) (h : k + 1 < 9 + 1) :
    sumAfter m c b (k + 1) h
      = sumAfter m c b k (Nat.lt_of_succ_lt h) + Chamfer.tileSum (bc m c b) (td m c b) ⟨k + 1, h⟩ := by
  unfold sumAfter
  rw [(later m c (pt b ⟨k + 1, h⟩) (later_pt b k h)).2]
  refine (Payloads.pay5_apply (iblk m c 0 (pt b ⟨k + 1, h⟩)) (iblk m c 1 (pt b ⟨k + 1, h⟩)) _).trans ?_
  rw [tile_sum m c b ⟨k + 1, h⟩, outsAt0_congr m c (pred_pt b k h)]

/-- After the last tile a row holds its nearest squared distance over all the tiles … -/
theorem col_last (c : Dev nD) (b : Fin 2) (r : Fin 256) :
    colAfter m c b r 9 (Nat.lt_succ_self 9) = ⨅ k : Fin 10, Chamfer.tileMin (bc m c b) (td m c b) r k :=
  Chamfer.runMin_last (n := 9) (fun k => Chamfer.tileMin (bc m c b) (td m c b) r k) (colAfter m c b r)
    (col_zero m c b r) (col_succ m c b r)

/-- … and the running sum is the sum over all the tiles. -/
theorem sum_last (c : Dev nD) (b : Fin 2) :
    sumAfter m c b 9 (Nat.lt_succ_self 9) = ∑ k : Fin 10, Chamfer.tileSum (bc m c b) (td m c b) k :=
  Chamfer.runSum_last (n := 9) (fun k => Chamfer.tileSum (bc m c b) (td m c b) k) (sumAfter m c b)
    (sum_zero m c b) (sum_succ m c b)

/-- So at a batch element's last tile the one output cell is written with that element's loss. -/
theorem out_eq (c : Dev nD) (b : Fin 2) (h : 10 * b.val + 9 < cfg0.N) :
    ((outsAt0 m c (10 * b.val + 9) h).1 : Vec Ideal S1x1x1 .f32) = fun _ => Chamfer.loss (bc m c b) (td m c b) := by
  funext y
  have hy : y = ix3 (0 : Fin 1) (0 : Fin 1) (0 : Fin 1) := funext fun a => by
    match a with
    | ⟨0, _⟩ => exact Fin.ext (Nat.lt_one_iff.mp (y 0).isLt)
    | ⟨1, _⟩ => exact Fin.ext (Nat.lt_one_iff.mp (y 1).isLt)
    | ⟨2, _⟩ => exact Fin.ext (Nat.lt_one_iff.mp (y 2).isLt)
  rw [hy]
  have e := last m c (pt b ⟨9, Nat.lt_succ_self 9⟩) (by show ¬(10 * b.val + 9) % 10 = 0; omega)
    (by show (10 * b.val + 9) % 10 = 9; omega)
  refine (congrFun e _).trans ?_
  refine (Payloads.pay6_apply _ _).trans ?_
  rw [← Chamfer.loss_eq_tiles]
  congr 1
  · exact Finset.sum_congr rfl fun r _ => col_last m c b r
  · exact sum_last m c b

/-- The same in terms of the program's arguments: the centres are half the sums of neighbouring edges, the depths the
    flattened target. -/
theorem out_loss (c : Dev nD) (b : Fin 2) (h : 10 * b.val + 9 < cfg0.N) :
    ((outsAt0 m c (10 * b.val + 9) h).1 : Vec Ideal S1x1x1 .f32)
      = fun _ => Chamfer.lossAt (centres (m ((c : Thread nD τ).loc main_arg1))) (depths (m ((c : Thread nD τ).loc main_arg0))) b := by
  have e1 : bc m c b = fun r => centres (m ((c : Thread nD τ).loc main_arg1)) (ix2 b r) :=
    funext fun r => V_main_v6_apply m c b r
  have e2 : td m c b = fun j => depths (m ((c : Thread nD τ).loc main_arg0)) (ix2 b j) :=
    funext fun j => V_main_v7_apply m c b j
  rw [out_eq m c b h, e1, e2]
  rfl

end AtIdeal

end Cert.KernelIdeal.Streamed

end
-- ==== Proof.KernelRun.lean ====
/-
  The kernel program's run with its result named.

  The program streams, per batch element `b` of 2, ten tiles of depths past 256 bin centres; its region's output is an
  array of shape [2,1,1] whose entry `b` is written back once, at the last tile of `b` (grid point `10 b + 9`), from a
  one-element staging buffer. After the region the host reshapes [2,1,1] to [2], sums the two entries from zero and
  divides by two.

  Given any per-batch values `G c b` that the staging buffer holds at the two flushing points, this module shows:
    * what each flushing point writes back is its block of `fun i => G c (i 0)` (`flushed_eq`), the two blocks cover
      the array (`cover`), so the array ends at `fun i => G c (i 0)` (`final`);
    * the host operations after the region, read over any starting contents, are the divide of the sum of the reshape
      (`tail_eq`), and the reshape of `fun i => G c (i 0)` is `fun i => G c (i 0)` on [2] (`reshape_eq`);
    * so the run ends with the last host buffer at the divide of the sum of `G c`, the arguments unchanged (`run_of`).
-/
import proofs.«166850_j21028159881362_1_alg».proof.Proof.Gen.KernelIdeal.Frame
import Idealize.ShloMosaic.Lib.ValueIdx
import Idealize.ShloMosaic.Lib.Pipeline.Value
import Idealize.ShloMosaic.Lib.ValueLayout
import Idealize.ShloMosaic.Lib.StableHlo.Run
import Idealize.ShloMosaic.Lib.Tactic

noncomputable section

namespace Cert.KernelIdeal.RunValue

open Cert.KernelIdeal Cert.KernelIdeal.Gen Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

/-- The output window's block index at a grid point: the batch element on axis 0, zero on the two unit axes. -/
theorem index_facts : ∀ t : Fin cfg0.N, win0_2.index t (0 : Fin 3) = t.val / 10
    ∧ win0_2.index t (1 : Fin 3) = 0 ∧ win0_2.index t (2 : Fin 3) = 0 :=
  (by decide +kernel : ∀ t : Fin grid0.N, _)

/-- What a flushing point writes back: the point is the last tile of batch element `t / 10`, and its one-element
    block is that batch element's entry of the result. -/
theorem flushed_eq (G : Dev nD → Fin 2 → F .f32)
    (hG : ∀ (c : Dev nD) (b : Fin 2) (h : 10 * b.val + 9 < cfg0.N), ((outsAt0 m c (10 * b.val + 9) h).1 : Vec F S1x1x1 .f32) = fun _ => G c b)
    (c : Dev nD) (t : Fin cfg0.N) (hf : (cfg0.win 2).flush t = true) :
    (dats m 0 c).flushed 2 t = ((cfg0.win 2).blk t).view.read (Elt F) (fun i : S2x1x1.Idx => G c (i 0)) := by
  have hN : cfg0.N = 20 := N_0
  have h9 : t.val % 10 = 9 := (flush0_2 t).mp hf
  have hlt : t.val < 20 := lt_of_lt_of_eq t.isLt hN
  have hb : t.val / 10 < 2 := by omega
  have key : ∀ (n : ℕ) (hn : n < cfg0.N) (b : Fin 2), n = 10 * b.val + 9 →
      ((outsAt0 m c n hn).1 : Vec F S1x1x1 .f32) = fun _ => G c b := by
    intro n hn b e; subst e; exact hG c b hn
  show (cfg0.win 2).cut (grid0.coords t) ((dats m 0 c).after 2 t) = _
  rw [after0_2, key t.val t.isLt ⟨t.val / 10, hb⟩ (by show t.val = 10 * (t.val / 10) + 9; omega)]
  funext y
  rw [View.read_apply]
  show G c ⟨t.val / 10, hb⟩ = G c (((cfg0.win 2).blk t).view.emb y 0)
  refine congrArg (G c) (Fin.ext ?_)
  have hy : (y 0).val < 1 := (y 0).isLt
  show t.val / 10 = win0_2.index t (0 : Fin 3) * 1 + 1 * (y 0).val
  rw [(index_facts t).1]
  omega

/-- Every entry of the result lies in the block written back at the last tile of its batch element. -/
theorem cover (i : S2x1x1.Idx) :
    ∃ t : Fin cfg0.N, (cfg0.win 2).flush t = true ∧ i ∈ ((cfg0.win 2).blk t).view.set := by
  have hN : cfg0.N = 20 := N_0
  have h0 : (i 0 : Nat) < 2 := (i 0).isLt
  have h1 : (i 1 : Nat) < 1 := (i 1).isLt
  have h2 : (i 2 : Nat) < 1 := (i 2).isLt
  let t : Fin cfg0.N := ⟨10 * (i 0).val + 9, by rw [hN]; omega⟩
  have ht : t.val = 10 * (i 0).val + 9 := rfl
  obtain ⟨e0, e1, e2⟩ := index_facts t
  refine ⟨t, (flush0_2 t).mpr (by rw [ht]; omega), ?_⟩
  show i ∈ ((View.whole main_v8).slice (win0_2.rect t)).set
  rw [View.set_slice_whole, Rect.mem_set_unit]
  intro a
  match a with
  | ⟨0, _⟩ =>
    show win0_2.index t (0 : Fin 3) * 1 ≤ (i 0 : Nat) ∧ (i 0 : Nat) < win0_2.index t (0 : Fin 3) * 1 + 1
    rw [e0, ht]; omega
  | ⟨1, _⟩ =>
    show win0_2.index t (1 : Fin 3) * 1 ≤ (i 1 : Nat) ∧ (i 1 : Nat) < win0_2.index t (1 : Fin 3) * 1 + 1
    rw [e1]; omega
  | ⟨2, _⟩ =>
    show win0_2.index t (2 : Fin 3) * 1 ≤ (i 2 : Nat) ∧ (i 2 : Nat) < win0_2.index t (2 : Fin 3) * 1 + 1
    rw [e2]; omega

/-- So the result array ends holding, at batch element `b`, what the staging buffer held at that element's last tile. -/
theorem final (G : Dev nD → Fin 2 → F .f32)
    (hG : ∀ (c : Dev nD) (b : Fin 2) (h : 10 * b.val + 9 < cfg0.N), ((outsAt0 m c (10 * b.val + 9) h).1 : Vec F S1x1x1 .f32) = fun _ => G c b)
    (c : Dev nD) : (dats m 0 c).arrAt 2 cfg0.N = fun i : S2x1x1.Idx => G c (i 0) :=
  (dats m 0 c).arrAt_eq_of_cover 2 _ (flushed_eq m G hG c) cover

/-- The host operations after the region, read over any contents of the buffers they start from: the result is the
    reshape of the region's output array summed from zero over its one axis and divided by two. -/
theorem tail_eq (W : Valuation τ sig (Elt F)) :
    StableHlo.after (hostOps1 (F := F)) W (Proc.devRef .tc main_v11)
      = Host.divf (Host.reduceAdd (shapeCast S2 (W (Proc.devRef .tc main_v8)) shapeCasts_S2x1x1_S2)
          (constant S_ .f32 0x00000000#32) reducesTo_S2_S_d0 h_S_) (constant S_ .f32 0x40000000#32) := by
  after_results
  rfl

/-- The index of the [2,1,1] array with batch coordinate `b`. -/
abbrev at3 (b : Fin 2) : S2x1x1.Idx := fun a => match a with
  | ⟨0, _⟩ => b
  | ⟨1, _⟩ => ⟨0, Nat.one_pos⟩
  | ⟨2, _⟩ => ⟨0, Nat.one_pos⟩

/-- Reshaping [2,1,1] to [2] keeps the batch coordinate: the two unit axes add nothing to the row-major position. -/
theorem reshape_eq (g : Fin 2 → F .f32) :
    shapeCast S2 (fun i : S2x1x1.Idx => g (i 0)) shapeCasts_S2x1x1_S2 = fun i : S2.Idx => g (i 0) := by
  funext j
  refine (shapeCast_apply (fun i : S2x1x1.Idx => g (i 0)) shapeCasts_S2x1x1_S2 j (at3 (j 0)) ?_).trans rfl
  rw [Shape.rowMajor_val_three, Shape.rowMajor_val_one]
  show ((j 0).val * 1 + 0) * 1 + 0 = (j 0).val
  omega

/-- The last host buffer after the run: the tail's three operations applied to the per-batch results. -/
theorem tail_result (G : Dev nD → Fin 2 → F .f32)
    (hG : ∀ (c : Dev nD) (b : Fin 2) (h : 10 * b.val + 9 < cfg0.N), ((outsAt0 m c (10 * b.val + 9) h).1 : Vec F S1x1x1 .f32) = fun _ => G c b)
    (c : Dev nD) :
    Pipeline.afterTail₀ cfgs (dats m) 0 (V0 m) [hostOps1] c main_v11
      = Host.divf (Host.reduceAdd (fun i : S2.Idx => G c (i 0)) (constant S_ .f32 0x00000000#32) reducesTo_S2_S_d0 h_S_) (constant S_ .f32 0x40000000#32) := by
  unfold Pipeline.afterTail₀
  show StableHlo.after hostOps1 _ (Proc.devRef .tc main_v11) = _
  rw [tail_eq]
  have hA := (Pipeline.withArrays_arr spec0 launch0.win.arr_inj c (V0 m c) (fun w => (dats m 0 c).arrAt w cfg0.N) 2).trans (final m G hG c)
  have hA' : Pipeline.withArrays (cfgs 0).spec c (V0 m c) (fun w => (dats m 0 c).arrAt w (cfgs 0).N) (Proc.devRef .tc main_v8)
      = fun i : S2x1x1.Idx => G c (i 0) := hA
  rw [hA', reshape_eq]

/-- THE RUN, with its result named. From any memory with zero counters every weakly fair execution of the program
    terminates; the last host buffer ends at the program's own closing operations — sum over the batch from zero,
    divide by two — of the per-batch values the output's staging buffer held at each batch element's last tile, and
    the two arguments end as launched. -/
theorem run_of (G : Dev nD → Fin 2 → F .f32)
    (hG : ∀ (c : Dev nD) (b : Fin 2) (h : 10 * b.val + 9 < cfg0.N), ((outsAt0 m c (10 * b.val + 9) h).1 : Vec F S1x1x1 .f32) = fun _ => G c b) :
    θ_run defs (onTc (τ := τ) (main (F := F))) ⟨m, fun _ => 0, ρ⟩ (fun r => ∀ c : Dev nD,
      r.2.mem ((c.tc : Thread nD τ).loc main_v11)
          = Host.divf (Host.reduceAdd (fun i : S2.Idx => G c (i 0)) (constant S_ .f32 0x00000000#32) reducesTo_S2_S_d0 h_S_) (constant S_ .f32 0x40000000#32)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v11 (Pipeline.mem_restRefs_of main_v11 (by decide) (by decide))).trans (tail_result m G hG c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.RunValue

end
-- ==== Proof.lean ====
/-
  The kernel and its reference compute one number: the mean over the two batch elements of the bidirectional
  Chamfer loss between 256 bin centres (half the sums of neighbouring bin edges) and 76800 depths (the flattened
  target),
      ∑ r, ⨅ j, (bc r - td j)² + ∑ j, ⨅ r, (bc r - td j)².
  The reference forms both terms from whole [2, 256, 76800] arrays. The kernel streams the depths of one batch
  element in ten tiles, keeping a running minimum per centre and a running sum of per-depth minima, and writes the
  loss out at the last tile; host operations then average the two losses exactly as the reference does. On the
  extended reals the streamed value is the whole one — a minimum (a sum) over all depths is the minimum (sum) over
  the tiles of the minima (sums) within them, and the squared difference is symmetric — so the two results are equal
  for every input, finite or not; the precondition is never opened.

  The frames of the two kernel programs are the generated ones; the reference's is its generated run with the result
  dropped. No operation of the kernel was rewritten for the idealization, so that claim is trivial.
-/
import proofs.«166850_j21028159881362_1_alg».proof.Defs
import proofs.«166850_j21028159881362_1_alg».proof.Proof.Gen.Kernel
import proofs.«166850_j21028159881362_1_alg».proof.Proof.Gen.Kernel.Frame
import proofs.«166850_j21028159881362_1_alg».proof.Proof.Gen.KernelIdeal
import proofs.«166850_j21028159881362_1_alg».proof.Proof.Gen.KernelIdeal.Frame
import proofs.«166850_j21028159881362_1_alg».proof.Proof.Gen.ReferenceIdeal
import proofs.«166850_j21028159881362_1_alg».proof.Proof.Gen.ReferenceIdeal.Run
import proofs.«166850_j21028159881362_1_alg».proof.Proof.Gen.ReferenceIdeal.Read
import proofs.«166850_j21028159881362_1_alg».proof.Proof.Gen.Pre_finite_inputs
import proofs.«166850_j21028159881362_1_alg».proof.Proof.Spec
import proofs.«166850_j21028159881362_1_alg».proof.Proof.RefStages
import proofs.«166850_j21028159881362_1_alg».proof.Proof.Streamed
import proofs.«166850_j21028159881362_1_alg».proof.Proof.KernelRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

section Reference

open Cert.ReferenceIdeal Cert.ReferenceIdeal.Gen Cert.ReferenceIdeal.Read

/-- The reference's result: its last host operations (sum the two, divide by two) applied to the two batch elements'
    losses. -/
theorem ref_value (x0 : (⟨S2x1x240x320, .f32⟩ : BufTy).Contents (Elt Ideal)) (x1 : (⟨S2x257, .f32⟩ : BufTy).Contents (Elt Ideal)) :
    val_main_v24 (F := Ideal) x0 x1
      = Host.divf (F := Ideal) (s := S_) (φ := .f32)
          (Host.reduceAdd (F := Ideal) (s := S2) (φ := .f32)
            (fun i => Chamfer.lossAt (val_main_v4 (F := Ideal) x1) (val_main_v5 (F := Ideal) x0) (i 0))
            (val_main_cst_4 (F := Ideal)) reducesTo_S2_S_d0 h_S_)
          (val_main_cst_5 (F := Ideal)) := by
  unfold val_main_v24 val_main_v23
  rw [show val_main_v22 (F := Ideal) x0 x1
      = fun i => Chamfer.lossAt (val_main_v4 (F := Ideal) x1) (val_main_v5 (F := Ideal) x0) (i 0)
      from funext (Cert.ReferenceIdeal.RefValue.result_eq x0 x1)]

end Reference

/-- The kernel program's run ends at its own last host operations (sum the two, divide by two) applied to the two batch
    elements' losses; the reference's run ends at the same operations applied to the same two losses of arguments that agree. -/
theorem algebraic : Cert.algebraic_KernelIdeal_ReferenceIdeal := by
  intro m ρ m' ρ' _ hagree
  refine ⟨_, Cert.KernelIdeal.RunValue.run_of m ρ
    (fun c b => Chamfer.lossAt (Cert.KernelIdeal.Blocks.centres (m ((c : Thread Cert.KernelIdeal.nD Cert.KernelIdeal.τ).loc Cert.KernelIdeal.main_arg1)))
      (Cert.KernelIdeal.Blocks.depths (m ((c : Thread Cert.KernelIdeal.nD Cert.KernelIdeal.τ).loc Cert.KernelIdeal.main_arg0))) b)
    (fun c b h => Cert.KernelIdeal.Streamed.out_loss m c b h), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, ref_value, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
